-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x32 : Shape := ⟨2, ![10000, 32]⟩
abbrev S100000x512 : Shape := ⟨2, ![100000, 512]⟩
abbrev S512x512 : Shape := ⟨2, ![512, 512]⟩
abbrev S512 : Shape := ⟨1, ![512]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : IVec S10000x32 32) (main_arg1 : FVec F S100000x512 .f32) (main_arg2 : FVec F S512x512 .f32) (main_arg3 : FVec F S512 .f32) : IVec S_ 1 :=
  let main_v0 : FVec F S100000x512 .f32 := Host.absf main_arg1
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S10000x32 : Shape := ⟨2, ![10000, 32]⟩
abbrev S100000x512 : Shape := ⟨2, ![100000, 512]⟩
abbrev S512x512 : Shape := ⟨2, ![512, 512]⟩
abbrev S512 : Shape := ⟨1, ![512]⟩
abbrev S1x512 : Shape := ⟨2, ![1, 512]⟩
abbrev S2000x512 : Shape := ⟨2, ![2000, 512]⟩
abbrev S_ : Shape := ⟨0, ![]⟩
abbrev S10000x32x1 : Shape := ⟨3, ![10000, 32, 1]⟩
abbrev S10000x32x512 : Shape := ⟨3, ![10000, 32, 512]⟩
abbrev S10000x512 : Shape := ⟨2, ![10000, 512]⟩
abbrev S400x32x512 : Shape := ⟨3, ![400, 32, 512]⟩
abbrev S400x512 : Shape := ⟨2, ![400, 512]⟩

abbrev nBuf : Space → Nat
  | .hbm => 17
  | .vmem => 10
  | .smem => 0
  | _ => 0

abbrev bufTy : (tb : Table) → Fin (tcTables nBuf tb) → BufTy
  | .hbm, ⟨0, _⟩ => ⟨S10000x32, .i32⟩
  | .hbm, ⟨1, _⟩ => ⟨S100000x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S1x512, .f32⟩
  | .hbm, ⟨6, _⟩ => ⟨S100000x512, .bf16⟩
  | .hbm, ⟨7, _⟩ => ⟨S_, .i32⟩
  | .hbm, ⟨8, _⟩ => ⟨S10000x32, .i32⟩
  | .hbm, ⟨9, _⟩ => ⟨S10000x32, .i1⟩
  | .hbm, ⟨10, _⟩ => ⟨S_, .i32⟩
  | .hbm, ⟨11, _⟩ => ⟨S10000x32, .i32⟩
  | .hbm, ⟨12, _⟩ => ⟨S10000x32, .i32⟩
  | .hbm, ⟨13, _⟩ => ⟨S10000x32, .i32⟩
  | .hbm, ⟨14, _⟩ => ⟨S10000x32x1, .i32⟩
  | .hbm, ⟨15, _⟩ => ⟨S10000x32x512, .bf16⟩
  | .hbm, ⟨16, _⟩ => ⟨S10000x512, .f32⟩
  | .local _ .vmem, ⟨0, _⟩ => ⟨S2000x512, .f32⟩
  | .local _ .vmem, ⟨1, _⟩ => ⟨S2000x512, .f32⟩
  | .local _ .vmem, ⟨2, _⟩ => ⟨S512x512, .f32⟩
  | .local _ .vmem, ⟨3, _⟩ => ⟨S1x512, .f32⟩
  | .local _ .vmem, ⟨4, _⟩ => ⟨S2000x512, .bf16⟩
  | .local _ .vmem, ⟨5, _⟩ => ⟨S2000x512, .bf16⟩
  | .local _ .vmem, ⟨6, _⟩ => ⟨S400x32x512, .bf16⟩
  | .local _ .vmem, ⟨7, _⟩ => ⟨S400x32x512, .bf16⟩
  | .local _ .vmem, ⟨8, _⟩ => ⟨S400x512, .f32⟩
  | .local _ .vmem, ⟨9, _⟩ => ⟨S400x512, .f32⟩
  | _, _ => ⟨S10000x32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x32x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S400x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  transposes_S512x512_S512x512_1_0 : S512x512.Transposes [1, 0] S512x512
  shapeCasts_S512_S1x512 : S512.ShapeCasts S1x512
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  packedbf16_S2000x512_S2000x512_0_0 : (Rect.unit (s := S2000x512) ![0, 0] S2000x512.size inb_S2000x512_S2000x512_0_0).PackedRows (EltTy.packing .bf16)
  bcast_S_S10000x32 : S_.BroadcastsInDim S10000x32 (![] : Fin 0 → Fin S10000x32.rank)
  bcast_S10000x32_S10000x32x1_0_1 : S10000x32.BroadcastsInDim S10000x32x1 (![0, 1] : Fin 2 → Fin S10000x32x1.rank)
  inb_S400x32x512_S400x32x512_0_0_0 : ∀ a, (![0, 0, 0] : Fin 3 → Nat) a + S400x32x512.size a ≤ S400x32x512.size a
  h_S400x32x512 : 0 < S400x32x512.numel
  shapeCasts_S400x32x512_S400x32x512 : S400x32x512.ShapeCasts S400x32x512
  reduces_S400x32x512_S400x512 : S400x32x512.Reduces [1] S400x512
  inb_S400x512_S400x512_0_0 : ∀ a, (![0, 0] : Fin 2 → Nat) a + S400x512.size a ≤ S400x512.size a
  h_S400x512 : 0 < S400x512.numel
  dot_S2000x512_S512x512_S2000x512_1_0_0_1_n_n_wf : DotDims.WF S2000x512 S512x512 S2000x512 [1] [0] [0] [1] [] []
  gather_S100000x512_S10000x32x1_S10000x32x512_2_0_n_n_0_2_1512_wf : GatherDims.WF S100000x512 S10000x32x1 S10000x32x512 [2] [0] [] [0] [] 2 ![1, 512]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x512.size a ≤ S100000x512.size a
  hwx0_3 : ∀ i : grid0.Coords, EltTy.bits .bf16 = 32 ∨ (Rect.block (s := S100000x512) S2000x512.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x32x512.size a ≤ S10000x32x512.size a
  hwx1_0 : ∀ i : grid1.Coords, EltTy.bits .bf16 = 32 ∨ (Rect.block (s := S10000x32x512) S400x32x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S400x512.size a ≤ S10000x512.size a
  hwx1_1 : ∀ i : grid1.Coords, EltTy.bits .f32 = 32 ∨ (Rect.block (s := S10000x512) S400x512.size (cc1_transform_1 i) (hinb1_1 i)).WholeWords (EltTy.packing .f32)

variable [Facts₀]

def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def gather_S100000x512_S10000x32x1_S10000x32x512_2_0_n_n_0_2_1512 : GatherDims S100000x512 S10000x32x1 S10000x32x512 where
  offsetDims := [2]
  collapsedSliceDims := [0]
  operandBatchingDims := []
  startIndicesBatchingDims := []
  startIndexMap := [0]
  indexVectorDim := 2
  sliceSizes := ![1, 512]
  wf := gather_S100000x512_S10000x32x1_S10000x32x512_2_0_n_n_0_2_1512_wf

abbrev win0_0 : Pipeline.Window sig grid0 :=
  Pipeline.Window.ofSpec (Memref.whole main_arg1) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2000x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v9) S400x32x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S400x512.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S10000x32 : Shape := ⟨2, ![10000, 32]⟩
abbrev S100000x512 : Shape := ⟨2, ![100000, 512]⟩
abbrev S512x512 : Shape := ⟨2, ![512, 512]⟩
abbrev S512 : Shape := ⟨1, ![512]⟩
abbrev S_ : Shape := ⟨0, ![]⟩
abbrev S10000x32x1 : Shape := ⟨3, ![10000, 32, 1]⟩
abbrev S10000x32x512 : Shape := ⟨3, ![10000, 32, 512]⟩
abbrev S1x1x512 : Shape := ⟨3, ![1, 1, 512]⟩
abbrev S10000x512 : Shape := ⟨2, ![10000, 512]⟩

abbrev nBuf : Space → Nat
  | .hbm => 25
  | .vmem => 0
  | .smem => 0
  | _ => 0

abbrev bufTy : (tb : Table) → Fin (tcTables nBuf tb) → BufTy
  | .hbm, ⟨0, _⟩ => ⟨S10000x32, .i32⟩
  | .hbm, ⟨1, _⟩ => ⟨S100000x512, .f32⟩
  | .hbm, ⟨2, _⟩ => ⟨S512x512, .f32⟩
  | .hbm, ⟨3, _⟩ => ⟨S512, .f32⟩
  | .hbm, ⟨4, _⟩ => ⟨S_, .i32⟩
  | .hbm, ⟨5, _⟩ => ⟨S10000x32, .i32⟩
  | .hbm, ⟨6, _⟩ => ⟨S10000x32, .i1⟩
  | .hbm, ⟨7, _⟩ => ⟨S_, .i32⟩
  | .hbm, ⟨8, _⟩ => ⟨S10000x32, .i32⟩
  | .hbm, ⟨9, _⟩ => ⟨S10000x32, .i32⟩
  | .hbm, ⟨10, _⟩ => ⟨S10000x32, .i32⟩
  | .hbm, ⟨11, _⟩ => ⟨S10000x32x1, .i32⟩
  | .hbm, ⟨12, _⟩ => ⟨S10000x32x512, .f32⟩
  | .hbm, ⟨13, _⟩ => ⟨S10000x32x512, .f32⟩
  | .hbm, ⟨14, _⟩ => ⟨S1x1x512, .f32⟩
  | .hbm, ⟨15, _⟩ => ⟨S10000x32x512, .f32⟩
  | .hbm, ⟨16, _⟩ => ⟨S10000x32x512, .f32⟩
  | .hbm, ⟨17, _⟩ => ⟨S_, .f32⟩
  | .hbm, ⟨18, _⟩ => ⟨S10000x32x512, .f32⟩
  | .hbm, ⟨19, _⟩ => ⟨S10000x32x512, .f32⟩
  | .hbm, ⟨20, _⟩ => ⟨S_, .f32⟩
  | .hbm, ⟨21, _⟩ => ⟨S10000x512, .f32⟩
  | .hbm, ⟨22, _⟩ => ⟨S_, .f32⟩
  | .hbm, ⟨23, _⟩ => ⟨S10000x512, .f32⟩
  | .hbm, ⟨24, _⟩ => ⟨S10000x512, .f32⟩
  | _, _ => ⟨S10000x32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_cst : Ref sig .tc := ⟨.hbm, 17, rfl⟩
abbrev main_call0_v0 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]

class Facts₀ : Prop where
  bcast_S_S10000x32 : S_.BroadcastsInDim S10000x32 (![] : Fin 0 → Fin S10000x32.rank)
  bcast_S10000x32_S10000x32x1_0_1 : S10000x32.BroadcastsInDim S10000x32x1 (![0, 1] : Fin 2 → Fin S10000x32x1.rank)
  bcast_S512_S1x1x512_2 : S512.BroadcastsInDim S1x1x512 (![2] : Fin 1 → Fin S1x1x512.rank)
  bcast_S1x1x512_S10000x32x512_0_1_2 : S1x1x512.BroadcastsInDim S10000x32x512 (![0, 1, 2] : Fin 3 → Fin S10000x32x512.rank)
  bcast_S_S10000x32x512 : S_.BroadcastsInDim S10000x32x512 (![] : Fin 0 → Fin S10000x32x512.rank)
  reducesTo_S10000x32x512_S10000x512_d1 : S10000x32x512.ReducesTo [1] S10000x512
  h_S_ : 0 < S_.numel
  bcast_S_S10000x512 : S_.BroadcastsInDim S10000x512 (![] : Fin 0 → Fin S10000x512.rank)
  gather_S100000x512_S10000x32x1_S10000x32x512_2_0_n_n_0_2_1512_wf : GatherDims.WF S100000x512 S10000x32x1 S10000x32x512 [2] [0] [] [0] [] 2 ![1, 512]
  dot_S10000x32x512_S512x512_S10000x32x512_2_1_01_0_n_n_wf : DotDims.WF S10000x32x512 S512x512 S10000x32x512 [2] [1] [0, 1] [0] [] []

variable [Facts₀]

def gather_S100000x512_S10000x32x1_S10000x32x512_2_0_n_n_0_2_1512 : GatherDims S100000x512 S10000x32x1 S10000x32x512 where
  offsetDims := [2]
  collapsedSliceDims := [0]
  operandBatchingDims := []
  startIndicesBatchingDims := []
  startIndexMap := [0]
  indexVectorDim := 2
  sliceSizes := ![1, 512]
  wf := gather_S100000x512_S10000x32x1_S10000x32x512_2_0_n_n_0_2_1512_wf
def dot_S10000x32x512_S512x512_S10000x32x512_2_1_01_0_n_n : DotDims S10000x32x512 S512x512 S10000x32x512 where
  lhsContracting := [2]
  rhsContracting := [1]
  lhsNonContracting := [0, 1]
  rhsNonContracting := [0]
  lhsBatch := []
  rhsBatch := []
  wf := dot_S10000x32x512_S512x512_S10000x32x512_2_1_01_0_n_n_wf

class Facts : Prop extends Facts₀ where

variable [Facts]
-- ==== Proof.KernelRun.lean ====
/-
  The kernel program's run with its result named. The program is four segments in a row: two host operations, the
  transform region, nine host operations, the pool region. The several-region launch theorem gives, for every weakly
  fair execution from a memory with zero counters, termination without a fault in a state whose unscoped buffers hold
  the last boundary's contents; there the result buffer is the pool region's output array after its 25 write-backs,
  and each argument is as launched.
-/
import proofs.«156018_j33698313404802_2_alg».proof.Proof.Gen.KernelIdeal.Frame

set_option maxRecDepth 16384

noncomputable section

namespace Cert.KernelIdeal.PoolMlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates, nothing faulting, with the result buffer at the pool
    region's output array after its last write-back and the four argument arrays as launched. -/
theorem run_named : θ_run defs (onTc (τ := τ) (main (F := F))) ⟨m, fun _ => 0, ρ⟩ (fun r => ∀ c : Dev nD,
      r.2.mem ((c.tc : Thread nD τ).loc main_v10) = (dat1 (V3 m ρ) c).arrAt 1 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v10 (by decide))).trans (W4_arr m ρ c 1),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.KernelIdeal.PoolMlp

end
-- ==== Proof.HostStretch.lean ====
/-
  The host operations around the two regions, read at the buffers the regions load. Before the first region the
  weight matrix is transposed and the bias is recast as a one-row matrix; the feature table is untouched. Between the
  regions the integer indices are prepared (a negative index counts from the end: the table's height is added to it)
  and the first region's result is gathered by rows at them; the indices themselves are an argument, as launched.
-/
import proofs.«156018_j33698313404802_2_alg».proof.Proof.Gen.KernelIdeal.Frame
import Idealize.ShloMosaic.Lib.StableHlo.Run
import Idealize.ShloMosaic.PureOps.Ideal

noncomputable section

namespace Cert.KernelIdeal.PoolMlp

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The start indices the gather reads, from the integer argument: where an index is negative the table's height
    `100000` is added, and a trailing unit axis holds the one component of each start index. -/
def startIdx (idx : IVec S10000x32 32) : IVec S10000x32x1 32 :=
  broadcastInDim S10000x32x1 ![0, 1] bcast_S10000x32_S10000x32x1_0_1
    (select (cmpi .slt idx (broadcastInDim S10000x32 ![] bcast_S_S10000x32 (constantI S_ 32 0#32)))
      (addi idx (broadcastInDim S10000x32 ![] bcast_S_S10000x32 (constantI S_ 32 100000#32))) idx)

/-- The first region finds the feature table as launched … -/
theorem entry0_features (c : Dev nD) :
    (V1 m ρ c main_arg1 : S100000x512.Idx → EReal) = m ((c : Thread nD τ).loc main_arg1) := by
  show StableHlo.after hostOps0 (W0 m ρ c) (Proc.devRef .tc main_arg1) = _
  after_results <;> rfl

/-- … the weight matrix transposed … -/
theorem entry0_weights (c : Dev nD) :
    (V1 m ρ c main_v0 : S512x512.Idx → EReal)
      = transpose S512x512 [1, 0] (m ((c : Thread nD τ).loc main_arg2)) transposes_S512x512_S512x512_1_0 := by
  show StableHlo.after hostOps0 (W0 m ρ c) (Proc.devRef .tc main_v0) = _
  after_results <;> rfl

/-- … and the bias as a one-row matrix. -/
theorem entry0_bias (c : Dev nD) :
    (V1 m ρ c main_v1 : S1x512.Idx → EReal)
      = shapeCast S1x512 (m ((c : Thread nD τ).loc main_arg3)) shapeCasts_S512_S1x512 := by
  show StableHlo.after hostOps0 (W0 m ρ c) (Proc.devRef .tc main_v1) = _
  after_results <;> rfl

/-- After the first region the integer argument is still as launched. -/
theorem exit0_indices (c : Dev nD) :
    (W2 m ρ c (Proc.devRef .tc main_arg0) : S10000x32.Idx → BitVec 32) = m ((c : Thread nD τ).loc main_arg0) := by
  refine (W2_of_ne m ρ c main_arg0 (by decide)).trans ?_
  show StableHlo.after hostOps0 (W0 m ρ c) (Proc.devRef .tc main_arg0) = _
  after_results <;> rfl

/-- The second region finds, in its input array, the first region's result gathered by rows at the prepared
    start indices. -/
theorem entry1_gathered (c : Dev nD) :
    (V3 m ρ c main_v9 : S10000x32x512.Idx → EReal)
      = Host.gather gather_S100000x512_S10000x32x1_S10000x32x512_2_0_n_n_0_2_1512
          ((dat0 (V1 m ρ) c).arrAt 3 cfg0.N) (startIdx (m ((c : Thread nD τ).loc main_arg0))) := by
  rw [← W2_arr m ρ c 3, ← exit0_indices m ρ c]
  show StableHlo.after hostOps1 (W2 m ρ c) (Proc.devRef .tc main_v9) = _
  after_results <;> rfl

end Cert.KernelIdeal.PoolMlp

end
-- ==== Proof.Spec.lean ====
/-
  The two per-entry functions of this certificate, on the extended reals.

  `mlpAt x wt b2 p q` is entry `(p, q)` of `relu (x · wt + b2)`: the sum over `k` of `x[p, k] · wt[k, q]`, plus the
  bias row's `b2[0, q]`, then the maximum with the zero word's value. It reads row `p` of `x` and nothing else of
  `x`: applied to a table it is a map applied row by row.

  `poolAt g r q` is entry `(r, q)` of the mean over the middle axis of `g : [R, 32, 512]`: the sum over the 32
  neighbours of `g[r, s, q]`, divided by the value of the word of `32.0`.

  Both keep their float literals as the words' values: the same words stand on both sides of the claim and are never
  evaluated.
-/
import Idealize.ShloMosaic.PureOps.Ideal
import Idealize.ShloMosaic.Lib.ValueIdx

noncomputable section

namespace Cert.PoolMlp

open Idealize.ShloMosaic Idealize.ShloMosaic.ValueIdx
open scoped BigOperators

/-- Entry `(p, q)` of `relu (x · wt + b2)` for `x : [n, 512]`, `wt : [512, 512]`, `b2 : [1, 512]`. -/
def mlpAt {n : Nat} (x : (⟨2, ![n, 512]⟩ : Shape).Idx → EReal) (wt : (⟨2, ![512, 512]⟩ : Shape).Idx → EReal)
    (b2 : (⟨2, ![1, 512]⟩ : Shape).Idx → EReal) (p : Fin n) (q : Fin 512) : EReal :=
  max ((∑ k : Fin 512, x (ix2 p k) * wt (ix2 k q)) + b2 (ix2 (0 : Fin 1) q)) (Ideal.ofBits .f32 0x00000000#32)

/-- Entry `(r, q)` of the mean over the middle axis of `g : [R, 32, 512]`. -/
def poolAt {R : Nat} (g : (⟨3, ![R, 32, 512]⟩ : Shape).Idx → EReal) (r : Fin R) (q : Fin 512) : EReal :=
  Ideal.div (∑ s : Fin 32, g (ix3 r s q)) (Ideal.ofBits .f32 0x42000000#32)

/-- `mlpAt` reads only row `p` of its first operand: two tables that agree on a row give the same entry. -/
theorem mlpAt_congr_row {n n' : Nat} (x : (⟨2, ![n, 512]⟩ : Shape).Idx → EReal) (x' : (⟨2, ![n', 512]⟩ : Shape).Idx → EReal)
    (wt : (⟨2, ![512, 512]⟩ : Shape).Idx → EReal) (b2 : (⟨2, ![1, 512]⟩ : Shape).Idx → EReal) (p : Fin n) (p' : Fin n')
    (q : Fin 512) (h : ∀ k : Fin 512, x (ix2 p k) = x' (ix2 p' k)) : mlpAt x wt b2 p q = mlpAt x' wt b2 p' q := by
  unfold mlpAt
  rw [Finset.sum_congr rfl fun k _ => by rw [h k]]

end Cert.PoolMlp

end
-- ==== Proof.PayTable.lean ====
/-
  The transform kernel's stored value, read at one entry. The body loads a block `x0 : [2000, 512]` of the feature
  table, the whole transposed weight matrix `x1 : [512, 512]` and the bias row `x2 : [1, 512]`, and stores
  `relu (x0 · x1 + x2)`. On the extended reals the changes of float format are the identity, the product into a zero
  accumulator is the plain sum over the contracted coordinate, and the bias row is broadcast down the rows: entry
  `(p, q)` of the stored block is `mlpAt x0 x1 x2 p q`.
-/
import proofs.«156018_j33698313404802_2_alg».proof.Proof.Gen.KernelIdeal.Skeleton
import proofs.«156018_j33698313404802_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PoolMlp

open Cert.KernelIdeal Cert.KernelIdeal.Gen Cert.PoolMlp
open Idealize.ShloMosaic Idealize.ShloMosaic.ValueIdx
open scoped BigOperators

/-- The left operand's index keeps the output's row … -/
theorem lhs_row (i : S2000x512.Idx) (k : dot_S2000x512_S512x512_S2000x512_1_0_0_1_n_n.contr.Idx) :
    (dot_S2000x512_S512x512_S2000x512_1_0_0_1_n_n.lhsIdx i k 0).val = (i 0).val := by
  unfold DotDims.lhsIdx
  rw [dif_neg (show ¬(0 : Fin S2000x512.rank) ∈ dot_S2000x512_S512x512_S2000x512_1_0_0_1_n_n.lhsBatch by decide),
    dif_pos (show (0 : Fin S2000x512.rank) ∈ dot_S2000x512_S512x512_S2000x512_1_0_0_1_n_n.lhsNonContracting by decide)]
  rfl
/-- … and the right operand's the output's column. -/
theorem rhs_col (i : S2000x512.Idx) (k : dot_S2000x512_S512x512_S2000x512_1_0_0_1_n_n.contr.Idx) :
    (dot_S2000x512_S512x512_S2000x512_1_0_0_1_n_n.rhsIdx i k 1).val = (i 1).val := by
  unfold DotDims.rhsIdx
  rw [dif_neg (show ¬(1 : Fin S512x512.rank) ∈ dot_S2000x512_S512x512_S2000x512_1_0_0_1_n_n.rhsBatch by decide),
    dif_pos (show (1 : Fin S512x512.rank) ∈ dot_S2000x512_S512x512_S2000x512_1_0_0_1_n_n.rhsNonContracting by decide)]
  rfl

/-- The kernel's matrix product into the zero accumulator, at `(p, q)`: the sum over `k` of `l[p, k] · r[k, q]`. -/
theorem matmul_at (l : FVec Ideal S2000x512 .bf16) (r : FVec Ideal S512x512 .bf16) (p : Fin 2000) (q : Fin 512) :
    matmul dot_S2000x512_S512x512_S2000x512_1_0_0_1_n_n none l r (constant (F := Ideal) S2000x512 .f32 0x00000000#32) (ix2 p q)
      = ∑ k : Fin 512, l (ix2 p k) * r (ix2 k q) := by
  simp only [matmul]
  rw [Ideal.matmul_constant_zero_apply,
    ← Equiv.sum_comp (ValueIdx.contrEquiv1 dot_S2000x512_S512x512_S2000x512_1_0_0_1_n_n 512 rfl rfl).symm]
  refine Finset.sum_congr rfl fun k _ => ?_
  have hk := ValueIdx.contrEquiv1_symm_val dot_S2000x512_S512x512_S2000x512_1_0_0_1_n_n 512 rfl rfl k
  have el : dot_S2000x512_S512x512_S2000x512_1_0_0_1_n_n.lhsIdx (ix2 p q)
      ((ValueIdx.contrEquiv1 dot_S2000x512_S512x512_S2000x512_1_0_0_1_n_n 512 rfl rfl).symm k) = ix2 p k :=
    funext fun a => Fin.ext (by
      match a with
      | ⟨0, _⟩ => exact lhs_row _ _
      | ⟨1, _⟩ => exact (dot_S2000x512_S512x512_S2000x512_1_0_0_1_n_n.lhsIdx_val_of_single rfl _ _).trans hk)
  have er : dot_S2000x512_S512x512_S2000x512_1_0_0_1_n_n.rhsIdx (ix2 p q)
      ((ValueIdx.contrEquiv1 dot_S2000x512_S512x512_S2000x512_1_0_0_1_n_n 512 rfl rfl).symm k) = ix2 k q :=
    funext fun a => Fin.ext (by
      match a with
      | ⟨0, _⟩ => exact (dot_S2000x512_S512x512_S2000x512_1_0_0_1_n_n.rhsIdx_val_of_single rfl _ _).trans hk
      | ⟨1, _⟩ => exact rhs_col _ _)
  rw [el, er]

/-- The bias row broadcast down the 2000 rows, at `(p, q)`: the row's entry `q`. -/
theorem bias_at (v : FVec Ideal S1x512 .f32) (p : Fin 2000) (q : Fin 512) :
    broadcastTo S2000x512 v broadcasts_S1x512_S2000x512 (ix2 p q) = v (ix2 (0 : Fin 1) q) :=
  broadcastTo_1b_ab_apply v broadcasts_S1x512_S2000x512 p q

/-- THE STORED BLOCK AT `(p, q)`. -/
theorem pay_table (x0 : Vec Ideal S2000x512 .f32) (x1 : Vec Ideal S512x512 .f32) (x2 : Vec Ideal S1x512 .f32)
    (p : Fin 2000) (q : Fin 512) :
    k0_pay1 (F := Ideal) x0 x1 x2 (ix2 p q) = mlpAt x0 x1 x2 p q := by
  unfold k0_pay1 mlpAt
  simp only [shapeCast_self]
  refine congrArg₂ max (congrArg₂ (· + ·) ?_ ?_) rfl
  · exact matmul_at _ _ p q
  · exact bias_at _ p q

end Cert.KernelIdeal.PoolMlp

end
-- ==== Proof.Region0.lean ====
/-
  The first region (the transform kernel over a grid of 50 points), from the contents `V` its arrays have when the
  region is entered. Point `t` loads rows `2000 t … 2000 t + 1999` of the feature table, the whole transposed weight
  matrix and the whole bias row, and writes back rows `2000 t … 2000 t + 1999` of the result. Row `r` of the result
  is in the block of point `r / 2000`, so the 50 blocks cover the result, and the result ends holding
  `tableOf` of the three arrays: entry `(r, q)` is `mlpAt` of row `r` of the feature table.
-/
import proofs.«156018_j33698313404802_2_alg».proof.Proof.Gen.KernelIdeal.Frame
import proofs.«156018_j33698313404802_2_alg».proof.Proof.PayTable

set_option maxRecDepth 16384

noncomputable section

namespace Cert.KernelIdeal.PoolMlp

open Cert.KernelIdeal Cert.KernelIdeal.Gen Cert.PoolMlp
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets2 : (![0, 0] : Fin 2 → Nat) = fun _ => 0 := funext fun a => by fin_cases a <;> rfl

/-- The whole table as one function of the feature table, the transposed weights and the bias row. -/
def tableOf (X : S100000x512.Idx → EReal) (WT : S512x512.Idx → EReal) (B2 : S1x512.Idx → EReal) :
    S100000x512.Idx → EReal := fun i => mlpAt X WT B2 (i 0) (i 1)

/-- The printed index maps, decided over the grid: the feature table's and the result's blocks move down the rows
    with the point, the weights' and the bias row's stay. -/
theorem index_maps0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The feature table's block at point `t` is rows `2000 t …` of the table. -/
theorem rows_block (c : Dev nD) (t : Fin cfg0.N) (x : S2000x512.Idx) (k : S100000x512.Idx)
    (hk0 : (k 0).val = 2000 * t.val + (x 0).val) (hk1 : (k 1).val = (x 1).val) :
    (iblk0 V c 0 t : Vec Ideal S2000x512 .f32) x = (V c main_arg1 : S100000x512.Idx → Elt Ideal .f32) k := by
  obtain ⟨e0, e1, -⟩ := index_maps0 t
  unfold iblk0
  rw [View.read_apply]
  show V c main_arg1 _ = V c main_arg1 _
  congr 1
  funext a
  apply Fin.ext
  match a with
  | ⟨0, _⟩ => show win0_0.index t (0 : Fin 2) * 2000 + 1 * (x 0).val = (k 0).val; rw [e0, hk0]; omega
  | ⟨1, _⟩ => show win0_0.index t (1 : Fin 2) * 512 + 1 * (x 1).val = (k 1).val; rw [e1, hk1]; omega

/-- The weights' block at every point is the whole matrix. -/
theorem weights_block (c : Dev nD) (t : Fin cfg0.N) :
    (iblk0 V c 1 t : Vec Ideal S512x512 .f32) = (V c main_v0 : S512x512.Idx → Elt Ideal .f32) := by
  obtain ⟨-, -, e2, e3, -⟩ := index_maps0 t
  funext x
  unfold iblk0
  rw [View.read_apply]
  show V c main_v0 _ = V c main_v0 x
  congr 1
  funext a
  apply Fin.ext
  match a with
  | ⟨0, _⟩ => show win0_1.index t (0 : Fin 2) * 512 + 1 * (x 0).val = (x 0).val; rw [e2]; omega
  | ⟨1, _⟩ => show win0_1.index t (1 : Fin 2) * 512 + 1 * (x 1).val = (x 1).val; rw [e3]; omega

/-- The bias row's block at every point is the whole row. -/
theorem bias_block (c : Dev nD) (t : Fin cfg0.N) :
    (iblk0 V c 2 t : Vec Ideal S1x512 .f32) = (V c main_v1 : S1x512.Idx → Elt Ideal .f32) := by
  obtain ⟨-, -, -, -, e4, e5, -⟩ := index_maps0 t
  funext x
  unfold iblk0
  rw [View.read_apply]
  show V c main_v1 _ = V c main_v1 x
  congr 1
  funext a
  apply Fin.ext
  match a with
  | ⟨0, _⟩ => show win0_2.index t (0 : Fin 2) * 1 + 1 * (x 0).val = (x 0).val; rw [e4]; omega
  | ⟨1, _⟩ => show win0_2.index t (1 : Fin 2) * 512 + 1 * (x 1).val = (x 1).val; rw [e5]; omega

/-- One stored entry, over variables: when the loaded block's row `p` is row `i 0` of `X`, the other two loads are the
    whole `WT` and `B2`, and the column is `i 1`, the stored entry `(p, q)` is the table's entry `i`. -/
theorem stored_entry0 (X : S100000x512.Idx → EReal) (WT : S512x512.Idx → EReal) (B2 : S1x512.Idx → EReal)
    (x0 : Vec Ideal S2000x512 .f32) (x1 : Vec Ideal S512x512 .f32) (x2 : Vec Ideal S1x512 .f32)
    (p : Fin 2000) (q : Fin 512) (i : S100000x512.Idx)
    (h0 : ∀ k : Fin 512, x0 (ix2 p k) = X (ix2 (i 0) k)) (h1 : x1 = WT) (h2 : x2 = B2) (hq : (i 1).val = q.val) :
    k0_pay1 (F := Ideal) x0 x1 x2 (ix2 p q) = tableOf X WT B2 i := by
  subst h1 h2
  rw [pay_table]
  unfold tableOf
  have e : (i 1) = q := Fin.ext hq
  rw [e]
  exact mlpAt_congr_row _ _ _ _ _ _ _ h0

/-- WHAT POINT `t` WRITES BACK is block `t` of `tableOf` of the arrays as the region finds them. -/
theorem flushed_table (c : Dev nD) (t : Fin cfg0.N) :
    (dat0 V c).flushed 3 t
      = ((cfg0.win 3).blk t).view.read (Elt Ideal) (tableOf (V c main_arg1) (V c main_v0) (V c main_v1)) := by
  show (cfg0.win 3).cut (grid0.coords t) ((dat0 V c).after 3 t) = _
  rw [after0_3]
  unfold out0_3
  rw [View.canon_unit_zero zero_offsets2]
  simp only [View.ld_unit_zero (S := S2000x512) zero_offsets2, View.ld_unit_zero (S := S512x512) zero_offsets2,
    View.ld_unit_zero (S := S1x512) zero_offsets2]
  obtain ⟨-, -, -, -, -, -, e6, e7⟩ := index_maps0 t
  have key : ∀ j : S2000x512.Idx,
      k0_pay1 (F := Ideal) (iblk0 V c 0 t) (iblk0 V c 1 t) (iblk0 V c 2 t) j
        = tableOf (V c main_arg1) (V c main_v0) (V c main_v1) (((cfg0.win 3).blk t).view.emb j) := by
    intro j
    obtain ⟨p, q, rfl⟩ : ∃ (p : Fin 2000) (q : Fin 512), j = ix2 p q := ⟨j 0, j 1, eq_ix2 j⟩
    refine stored_entry0 (V c main_arg1) (V c main_v0) (V c main_v1) (iblk0 V c 0 t) (iblk0 V c 1 t) (iblk0 V c 2 t)
      p q (((cfg0.win 3).blk t).view.emb (ix2 p q)) (fun k => ?_) (weights_block V c t) (bias_block V c t) ?_
    · refine rows_block V c t (ix2 p k) _ ?_ rfl
      show win0_3.index t (0 : Fin 2) * 2000 + 1 * p.val = 2000 * t.val + p.val
      rw [e6]; omega
    · show win0_3.index t (1 : Fin 2) * 512 + 1 * q.val = q.val
      rw [e7]; omega
  exact funext key

/-- An index of the result is in point `t`'s block iff each coordinate is in the block's range on its axis. -/
theorem mem_block3 (t : Fin cfg0.N) (i : S100000x512.Idx) :
    i ∈ ((cfg0.win 3).blk t).view.set ↔ ∀ a : Fin 2, win0_3.index t a * S2000x512.size a ≤ (i a).val
      ∧ (i a).val < win0_3.index t a * S2000x512.size a + S2000x512.size a := by
  show i ∈ ((View.whole main_v2).slice (win0_3.rect t)).set ↔ _
  rw [View.set_slice_whole, Rect.mem_set_unit]
  exact Iff.rfl

/-- Every index of the result is in the block of the point its row names. -/
theorem cover3 (i : S100000x512.Idx) :
    ∃ t : Fin cfg0.N, (cfg0.win 3).flush t = true ∧ i ∈ ((cfg0.win 3).blk t).view.set := by
  have hN : cfg0.N = 50 := N_0
  have h0 : (i 0).val < 100000 := (i 0).isLt
  have h1 : (i 1).val < 512 := (i 1).isLt
  obtain ⟨n, hn⟩ : ∃ n, n = (i 0).val / 2000 := ⟨_, rfl⟩
  have hlt : n < cfg0.N := by rw [hN]; omega
  obtain ⟨-, -, -, -, -, -, e6, e7⟩ := index_maps0 ⟨n, hlt⟩
  have e6' : win0_3.index ⟨n, hlt⟩ (0 : Fin 2) = n := e6
  refine ⟨⟨n, hlt⟩, flush0_3 _, ?_⟩
  rw [mem_block3]
  intro a
  match a with
  | ⟨0, _⟩ =>
    show win0_3.index ⟨n, hlt⟩ (0 : Fin 2) * 2000 ≤ (i 0).val ∧ (i 0).val < win0_3.index ⟨n, hlt⟩ (0 : Fin 2) * 2000 + 2000
    rw [e6']; omega
  | ⟨1, _⟩ =>
    show win0_3.index ⟨n, hlt⟩ (1 : Fin 2) * 512 ≤ (i 1).val ∧ (i 1).val < win0_3.index ⟨n, hlt⟩ (1 : Fin 2) * 512 + 512
    rw [e7]; omega

/-- THE RESULT OF THE FIRST REGION: `tableOf` of the feature table, the transposed weights and the bias row as the
    region finds them. -/
theorem final_table (c : Dev nD) :
    (dat0 V c).arrAt 3 cfg0.N = tableOf (V c main_arg1) (V c main_v0) (V c main_v1) :=
  (dat0 V c).arrAt_eq_of_cover 3 _ (fun t _ => flushed_table V c t) cover3

end Cert.KernelIdeal.PoolMlp

end
-- ==== Proof.PayPool.lean ====
/-
  The pool kernel's stored value, read at one entry. The body loads a block `x0 : [400, 32, 512]` of gathered rows,
  sums it over the middle axis (the 32 neighbours) and divides by `32.0`. On the extended reals the change of float
  format is the identity and the lane sum over one axis is the plain sum over that axis's coordinate: entry `(p, q)`
  of the stored block is `poolAt x0 p q`.
-/
import proofs.«156018_j33698313404802_2_alg».proof.Proof.Gen.KernelIdeal.Skeleton
import proofs.«156018_j33698313404802_2_alg».proof.Proof.Spec
import Idealize.ShloMosaic.Lib.Pipeline.Value
import Idealize.ShloMosaic.Lib.ValueIdx
import Idealize.ShloMosaic.PureOps.Ideal.Laws

noncomputable section

namespace Cert.KernelIdeal.PoolMlp

open Cert.KernelIdeal Cert.KernelIdeal.Gen Cert.PoolMlp
open Idealize.ShloMosaic Idealize.ShloMosaic.ValueIdx
open scoped BigOperators

/-- The lane sum over the middle axis of a `[400, 32, 512]` vector, at `(p, q)`: the sum over `s` of `v[p, s, q]`. -/
theorem lane_sum_at (v : FVec Ideal S400x32x512 .f32) (hφ : FKind.Formats .f32)
    (hacc : (0x00000000#32 : BitVec 32) = FKind.add.neutral .f32 hφ) (p : Fin 400) (q : Fin 512) :
    multiReduction .add [1] S400x512 v 0x00000000#32 reduces_S400x32x512_S400x512 hφ hacc (ix2 p q)
      = ∑ s : Fin 32, v (ix3 p s q) := by
  refine (Ideal.multiReduction_add_single v 0x00000000#32 reduces_S400x32x512_S400x512 hφ hacc (ix2 p q)).trans ?_
  refine Finset.sum_congr rfl fun s _ => congrArg v ?_
  funext a
  refine Fin.ext ?_
  match a with
  | ⟨0, _⟩ => rfl
  | ⟨1, _⟩ => rfl
  | ⟨2, _⟩ => rfl

/-- THE STORED BLOCK AT `(p, q)`. -/
theorem pay_pool (x0 : Vec Ideal S400x32x512 .bf16) (p : Fin 400) (q : Fin 512) :
    k1_pay1 (F := Ideal) x0 (ix2 p q) = poolAt x0 p q := by
  unfold k1_pay1 poolAt
  simp only [shapeCast_self]
  refine (divf_apply _ _ (ix2 p q)).trans ?_
  exact congrArg₂ Ideal.div (lane_sum_at _ _ _ p q) rfl

end Cert.KernelIdeal.PoolMlp

end
-- ==== Proof.Region1.lean ====
/-
  The second region (the pool kernel over a grid of 25 points), from the contents `V` its arrays have when the region
  is entered. Point `t` loads rows `400 t … 400 t + 399` of the gathered `[10000, 32, 512]` array and writes back rows
  `400 t … 400 t + 399` of the result. Row `r` of the result is in the block of point `r / 400`, so the 25 blocks
  cover the result, and the result ends holding `poolOf` of the gathered array: entry `(r, q)` is the mean over the 32
  neighbours of `g[r, s, q]`.
-/
import proofs.«156018_j33698313404802_2_alg».proof.Proof.Gen.KernelIdeal.Frame
import proofs.«156018_j33698313404802_2_alg».proof.Proof.PayPool

set_option maxRecDepth 16384

noncomputable section

namespace Cert.KernelIdeal.PoolMlp

open Cert.KernelIdeal Cert.KernelIdeal.Gen Cert.PoolMlp
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets2' : (![0, 0] : Fin 2 → Nat) = fun _ => 0 := funext fun a => by fin_cases a <;> rfl
theorem zero_offsets3 : (![0, 0, 0] : Fin 3 → Nat) = fun _ => 0 := funext fun a => by fin_cases a <;> rfl

/-- The whole pooled result as one function of the gathered array. -/
def poolOf (G : S10000x32x512.Idx → EReal) : S10000x512.Idx → EReal := fun i => poolAt G (i 0) (i 1)

/-- The printed index maps, decided over the grid: both windows' blocks move down the rows with the point. -/
theorem index_maps1 : ∀ t : Fin cfg1.N,
    win1_0.index t (0 : Fin 3) = t.val ∧ win1_0.index t (1 : Fin 3) = 0 ∧ win1_0.index t (2 : Fin 3) = 0
    ∧ win1_1.index t (0 : Fin 2) = t.val ∧ win1_1.index t (1 : Fin 2) = 0 :=
  (by decide +kernel : ∀ t : Fin grid1.N, _)

/-- The gathered array's block at point `t` is rows `400 t …` of the array. -/
theorem gathered_block (c : Dev nD) (t : Fin cfg1.N) (x : S400x32x512.Idx) (k : S10000x32x512.Idx)
    (hk0 : (k 0).val = 400 * t.val + (x 0).val) (hk1 : (k 1).val = (x 1).val) (hk2 : (k 2).val = (x 2).val) :
    (iblk1 V c 0 t : Vec Ideal S400x32x512 .bf16) x = (V c main_v9 : S10000x32x512.Idx → Elt Ideal .bf16) k := by
  obtain ⟨e0, e1, e2, -⟩ := index_maps1 t
  unfold iblk1
  rw [View.read_apply]
  show V c main_v9 _ = V c main_v9 _
  congr 1
  funext a
  apply Fin.ext
  match a with
  | ⟨0, _⟩ => show win1_0.index t (0 : Fin 3) * 400 + 1 * (x 0).val = (k 0).val; rw [e0, hk0]; omega
  | ⟨1, _⟩ => show win1_0.index t (1 : Fin 3) * 32 + 1 * (x 1).val = (k 1).val; rw [e1, hk1]; omega
  | ⟨2, _⟩ => show win1_0.index t (2 : Fin 3) * 512 + 1 * (x 2).val = (k 2).val; rw [e2, hk2]; omega

/-- One stored entry, over variables: when the loaded block's entries `(p, s, q)` are `G`'s entries `(i 0, s, i 1)`,
    the stored entry `(p, q)` is the pooled result's entry `i`. -/
theorem stored_entry1 (G : S10000x32x512.Idx → EReal) (x0 : Vec Ideal S400x32x512 .bf16)
    (p : Fin 400) (q : Fin 512) (i : S10000x512.Idx)
    (h0 : ∀ s : Fin 32, x0 (ix3 p s q) = G (ix3 (i 0) s (i 1))) :
    k1_pay1 (F := Ideal) x0 (ix2 p q) = poolOf G i := by
  rw [pay_pool]
  unfold poolOf poolAt
  rw [Finset.sum_congr rfl fun s _ => h0 s]

/-- WHAT POINT `t` WRITES BACK is block `t` of `poolOf` of the gathered array as the region finds it. -/
theorem flushed_pool (c : Dev nD) (t : Fin cfg1.N) :
    (dat1 V c).flushed 1 t = ((cfg1.win 1).blk t).view.read (Elt Ideal) (poolOf (V c main_v9)) := by
  show (cfg1.win 1).cut (grid1.coords t) ((dat1 V c).after 1 t) = _
  rw [after1_1]
  unfold out1_1
  rw [View.canon_unit_zero zero_offsets2']
  simp only [View.ld_unit_zero (S := S400x32x512) zero_offsets3]
  obtain ⟨-, -, -, e3, e4⟩ := index_maps1 t
  have key : ∀ j : S400x512.Idx,
      k1_pay1 (F := Ideal) (iblk1 V c 0 t) j = poolOf (V c main_v9) (((cfg1.win 1).blk t).view.emb j) := by
    intro j
    obtain ⟨p, q, rfl⟩ : ∃ (p : Fin 400) (q : Fin 512), j = ix2 p q := ⟨j 0, j 1, eq_ix2 j⟩
    refine stored_entry1 (V c main_v9) (iblk1 V c 0 t) p q (((cfg1.win 1).blk t).view.emb (ix2 p q)) (fun s => ?_)
    refine gathered_block V c t (ix3 p s q) _ ?_ rfl ?_
    · show win1_1.index t (0 : Fin 2) * 400 + 1 * p.val = 400 * t.val + p.val
      rw [e3]; omega
    · show win1_1.index t (1 : Fin 2) * 512 + 1 * q.val = q.val
      rw [e4]; omega
  exact funext key

/-- An index of the result is in point `t`'s block iff each coordinate is in the block's range on its axis. -/
theorem mem_block1 (t : Fin cfg1.N) (i : S10000x512.Idx) :
    i ∈ ((cfg1.win 1).blk t).view.set ↔ ∀ a : Fin 2, win1_1.index t a * S400x512.size a ≤ (i a).val
      ∧ (i a).val < win1_1.index t a * S400x512.size a + S400x512.size a := by
  show i ∈ ((View.whole main_v10).slice (win1_1.rect t)).set ↔ _
  rw [View.set_slice_whole, Rect.mem_set_unit]
  exact Iff.rfl

/-- Every index of the result is in the block of the point its row names. -/
theorem cover1 (i : S10000x512.Idx) :
    ∃ t : Fin cfg1.N, (cfg1.win 1).flush t = true ∧ i ∈ ((cfg1.win 1).blk t).view.set := by
  have hN : cfg1.N = 25 := N_1
  have h0 : (i 0).val < 10000 := (i 0).isLt
  have h1 : (i 1).val < 512 := (i 1).isLt
  obtain ⟨n, hn⟩ : ∃ n, n = (i 0).val / 400 := ⟨_, rfl⟩
  have hlt : n < cfg1.N := by rw [hN]; omega
  obtain ⟨-, -, -, e3, e4⟩ := index_maps1 ⟨n, hlt⟩
  have e3' : win1_1.index ⟨n, hlt⟩ (0 : Fin 2) = n := e3
  refine ⟨⟨n, hlt⟩, flush1_1 _, ?_⟩
  rw [mem_block1]
  intro a
  match a with
  | ⟨0, _⟩ =>
    show win1_1.index ⟨n, hlt⟩ (0 : Fin 2) * 400 ≤ (i 0).val ∧ (i 0).val < win1_1.index ⟨n, hlt⟩ (0 : Fin 2) * 400 + 400
    rw [e3']; omega
  | ⟨1, _⟩ =>
    show win1_1.index ⟨n, hlt⟩ (1 : Fin 2) * 512 ≤ (i 1).val ∧ (i 1).val < win1_1.index ⟨n, hlt⟩ (1 : Fin 2) * 512 + 512
    rw [e4]; omega

/-- THE RESULT OF THE SECOND REGION: `poolOf` of the gathered array as the region finds it. -/
theorem final_pool (c : Dev nD) : (dat1 V c).arrAt 1 cfg1.N = poolOf (V c main_v9) :=
  (dat1 V c).arrAt_eq_of_cover 1 _ (fun t _ => flushed_pool V c t) cover1

end Cert.KernelIdeal.PoolMlp

end
-- ==== Proof.LibGatherRows.lean ====
/-
  A ROW GATHER read at an index: taking, for each entry of an integer array `idx : [R, C]`, a whole row of a table
  `x : [N, D]`. As a gather it has offset_dims `[2]`, collapsed_slice_dims `[0]`, start_index_map `[0]`, slice_sizes
  `[1, D]` and index_vector_dim 2 over the indices as `[R, C, 1]`. Result element `(r, c, d)` is the table's element in column
  `d` of the row named by the start index `idx[r, c, 0]`, read as a signed integer and clamped into `[0, N - 1]`.
  Two consequences used by a value proof: the row does not depend on `d`, and it is always a row of the table, so a
  map applied row by row commutes with the gather whatever the integers are.
-/
import Idealize.ShloMosaic.Lib.ValueIdx

noncomputable section

namespace Idealize.ShloMosaic.GatherRows

open Idealize.ShloMosaic Idealize.ShloMosaic.ValueIdx

variable {α : Type}

/-- The dimension numbers of a row gather, for a table `[N, D]`, start indices `[R, C, 1]` and a result `[R, C, D]`;
    their conditions `wf` are decided on a program's literal shapes. -/
abbrev rowDims (N D R C : Nat)
    (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndicesBatchingDims := []
  startIndexMap := [0]
  indexVectorDim := 2
  sliceSizes := ![1, D]
  wf := wf

/-- The start-indices index `[r, c, 0]` of result index `(r, c, d)`. -/
abbrev startAt {R C D : Nat} (y : (⟨3, ![R, C, D]⟩ : Shape).Idx) : (⟨3, ![R, C, 1]⟩ : Shape).Idx :=
  fun a => match a with
    | ⟨0, _⟩ => ⟨(y 0).val, (y 0).isLt⟩
    | ⟨1, _⟩ => ⟨(y 1).val, (y 1).isLt⟩
    | ⟨2, _⟩ => ⟨0, Nat.one_pos⟩

/-- The row of the table that result index `y` reads: its start index, signed, clamped into `[0, N - 1]`. -/
def rowOf {N R C D w : Nat} (hN : 0 < N) (idx : IVec ⟨3, ![R, C, 1]⟩ w) (y : (⟨3, ![R, C, D]⟩ : Shape).Idx) : Fin N :=
  ⟨min (idx (startAt y)).toInt.toNat (N - 1), by omega⟩

/-- THE ROW GATHER READ AT `(r, c, d)`: column `d` of the row `rowOf` names. -/
theorem gather_rows_apply {N D R C w : Nat} (hN : 0 < N)
    (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ w) (y : (⟨3, ![R, C, D]⟩ : Shape).Idx) :
    Host.gather (rowDims N D R C wf) x idx y = x (ix2 (rowOf hN idx y) ⟨(y 2).val, (y 2).isLt⟩) := by
  unfold Host.gather
  congr 1
  funext a
  refine Fin.ext ?_
  match a with
  | ⟨0, _⟩ =>
    show (rowDims N D R C wf).start y idx 0 + (rowDims N D R C wf).batchCoord y 0 + (rowDims N D R C wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D R C wf).startIndexMap from List.mem_singleton.mpr rfl)]
    have hsi : (rowDims N D R C wf).siIdx y ⟨List.idxOf (0 : Fin 2) (rowDims N D R C wf).startIndexMap,
        List.idxOf_lt_length_iff.2 (List.mem_singleton.mpr rfl)⟩ = startAt y := by
      funext b; refine Fin.ext ?_
      match b with
      | ⟨0, _⟩ => rfl
      | ⟨1, _⟩ => rfl
      | ⟨2, _⟩ => rfl
    rw [hsi]
    rfl
  | ⟨1, _⟩ =>
    show (rowDims N D R C wf).start y idx 1 + (rowDims N D R C wf).batchCoord y 1 + (rowDims N D R C wf).offCoord y 1 = (y 2).val
    rw [GatherDims.batchCoord_eq_zero _ _ _ List.not_mem_nil]
    unfold GatherDims.start
    rw [dif_neg (show (1 : Fin 2) ∉ (rowDims N D R C wf).startIndexMap from
      fun h => absurd (show (1 : Nat) = 0 from congrArg Fin.val (List.mem_singleton.mp h)) Nat.one_ne_zero)]
    have hk : (1 : Fin 2) ∈ (rowDims N D R C wf).sKept :=
      (GatherDims.mem_sKept _ _).mpr ⟨fun h => absurd (show (1 : Nat) = 0 from congrArg Fin.val (List.mem_singleton.mp h)) Nat.one_ne_zero, List.not_mem_nil⟩
    unfold GatherDims.offCoord
    rw [dif_pos hk]
    simp only [Nat.zero_add, Nat.add_zero]
    rfl

/-- The row does not depend on the last coordinate of the result index. -/
theorem rowOf_congr {N R C D D' w : Nat} (hN : 0 < N) (idx : IVec ⟨3, ![R, C, 1]⟩ w)
    (y : (⟨3, ![R, C, D]⟩ : Shape).Idx) (y' : (⟨3, ![R, C, D']⟩ : Shape).Idx)
    (h0 : (y 0).val = (y' 0).val) (h1 : (y 1).val = (y' 1).val) : rowOf hN idx y = rowOf hN idx y' := by
  have e : startAt y = startAt y' := by
    funext b; refine Fin.ext ?_
    match b with
    | ⟨0, _⟩ => exact h0
    | ⟨1, _⟩ => exact h1
    | ⟨2, _⟩ => rfl
  refine Fin.ext ?_
  show min (idx (startAt y)).toInt.toNat (N - 1) = min (idx (startAt y')).toInt.toNat (N - 1)
  rw [e]

end Idealize.ShloMosaic.GatherRows

end
-- ==== Proof.Result.lean ====
/-
  The result both programs compute, as one function of the prepared start indices `sI : [10000, 32, 1]`, the feature
  table `f : [100000, 512]`, the weights `W : [512, 512]` and the bias `b : [512]`, on the extended reals:

    result[r, q] = ( Σ_s  max ( Σ_k f[row(r, s), k] · W[q, k] + b[q], 0 ) ) / 32

  where `row(r, s)` is the start index `sI[r, s, 0]` read signed and clamped into `[0, 99999]`. The kernel applies
  the inner map to every row of the table and then takes rows; the reference takes rows and then applies the map. The
  row is always a row of the table and does not depend on the column, so the two orders give the same entry whatever
  the integers are.
-/
import proofs.«156018_j33698313404802_2_alg».proof.Proof.Spec
import proofs.«156018_j33698313404802_2_alg».proof.Proof.LibGatherRows

noncomputable section

namespace Cert.PoolMlp

open Idealize.ShloMosaic Idealize.ShloMosaic.ValueIdx Idealize.ShloMosaic.GatherRows
open scoped BigOperators

/-- The table has a row to clamp into. -/
theorem table_rows_pos : 0 < 100000 := by decide

/-- Entry `(r, q)` of the result. -/
def entry (sI : IVec ⟨3, ![10000, 32, 1]⟩ 32) (f : (⟨2, ![100000, 512]⟩ : Shape).Idx → EReal)
    (W : (⟨2, ![512, 512]⟩ : Shape).Idx → EReal) (b : (⟨1, ![512]⟩ : Shape).Idx → EReal) (r : Fin 10000) (q : Fin 512) : EReal :=
  Ideal.div
    (∑ s : Fin 32, max ((∑ k : Fin 512,
        f (ix2 (rowOf table_rows_pos sI (ix3 r s q : (⟨3, ![10000, 32, 512]⟩ : Shape).Idx)) k) * W (ix2 q k)) + b (ix1 q))
      (Ideal.ofBits .f32 0x00000000#32))
    (Ideal.ofBits .f32 0x42000000#32)

/-- The result array. -/
def result (sI : IVec ⟨3, ![10000, 32, 1]⟩ 32) (f : (⟨2, ![100000, 512]⟩ : Shape).Idx → EReal)
    (W : (⟨2, ![512, 512]⟩ : Shape).Idx → EReal) (b : (⟨1, ![512]⟩ : Shape).Idx → EReal) :
    (⟨2, ![10000, 512]⟩ : Shape).Idx → EReal := fun i => entry sI f W b (i 0) (i 1)

end Cert.PoolMlp

end
-- ==== Proof.KernelIsResult.lean ====
/-
  The kernel program's composed function is `result`. The transform region leaves `tableOf` of the feature table,
  the transposed weights and the one-row bias; the host gathers its rows; the pool region leaves `poolOf` of the
  gathered array. Entry `(r, q)`: the gather reads column `q` of the table's row `row(r, s)`, which is `mlpAt` of that
  row of the feature table; the transposed weights at `(k, q)` are the weights at `(q, k)`, and the one-row bias at
  `(0, q)` is the bias at `q`.
-/
import proofs.«156018_j33698313404802_2_alg».proof.Proof.Region0
import proofs.«156018_j33698313404802_2_alg».proof.Proof.Region1
import proofs.«156018_j33698313404802_2_alg».proof.Proof.Result
import Idealize.ShloMosaic.Lib.ValueLayout

noncomputable section

namespace Cert.KernelIdeal.PoolMlp

open Cert.KernelIdeal Cert.KernelIdeal.Gen Cert.PoolMlp
open Idealize.ShloMosaic Idealize.ShloMosaic.ValueIdx Idealize.ShloMosaic.GatherRows
open scoped BigOperators

/-- The program's gather is the row gather of these shapes. -/
theorem gather_is_rows :
    gather_S100000x512_S10000x32x1_S10000x32x512_2_0_n_n_0_2_1512
      = rowDims 100000 512 10000 32 gather_S100000x512_S10000x32x1_S10000x32x512_2_0_n_n_0_2_1512.wf := rfl

/-- THE KERNEL'S COMPOSED FUNCTION: pooling the row gather of the transformed table is `result`. -/
theorem kernel_is_result (sI : IVec S10000x32x1 32) (f : S100000x512.Idx → EReal) (W : S512x512.Idx → EReal)
    (b : S512.Idx → EReal) :
    poolOf (Host.gather gather_S100000x512_S10000x32x1_S10000x32x512_2_0_n_n_0_2_1512
        (tableOf f (transpose S512x512 [1, 0] W transposes_S512x512_S512x512_1_0)
          (shapeCast S1x512 b shapeCasts_S512_S1x512)) sI)
      = result sI f W b := by
  funext i
  obtain ⟨r, q, rfl⟩ : ∃ (r : Fin 10000) (q : Fin 512), i = ix2 r q := ⟨i 0, i 1, eq_ix2 i⟩
  unfold poolOf result poolAt entry
  refine congrArg (fun z => Ideal.div z (Ideal.ofBits .f32 0x42000000#32)) (Finset.sum_congr rfl fun s _ => ?_)
  rw [gather_is_rows]
  refine (gather_rows_apply table_rows_pos _ _ sI (ix3 r s q)).trans ?_
  unfold tableOf mlpAt
  refine congrArg₂ max (congrArg₂ (· + ·) (Finset.sum_congr rfl fun k _ => congrArg₂ (· * ·) rfl ?_) ?_) rfl
  · exact transpose_ix2_apply W transposes_S512x512_S512x512_1_0 k q
  · exact shapeCast_a_1a_apply b shapeCasts_S512_S1x512 (0 : Fin 1) q

end Cert.KernelIdeal.PoolMlp

end
-- ==== Proof.KernelValue.lean ====
/-
  The kernel program's result as a function of its arguments. The pool region's output array is `poolOf` of what the
  region finds in its input array; that is the row gather, at the prepared start indices, of the transform region's
  output array; that is `tableOf` of what the transform region finds: the feature table as launched, the weights
  transposed and the bias as one row. Composed, the result buffer ends at `result` of the launch arrays.
-/
import proofs.«156018_j33698313404802_2_alg».proof.Proof.KernelRun
import proofs.«156018_j33698313404802_2_alg».proof.Proof.HostStretch
import proofs.«156018_j33698313404802_2_alg».proof.Proof.KernelIsResult

noncomputable section

namespace Cert.KernelIdeal.PoolMlp

open Cert.KernelIdeal Cert.KernelIdeal.Gen Cert.PoolMlp
open Idealize.ShloMosaic Idealize.ShloMosaic.TcCoe Idealize.SL.Sem

variable (m : (ℓ : Loc nD τ sig) → Buf (Elt Ideal) ℓ) (ρ : Dev nD → PrngReg)

/-- The result of the launch arrays on core `c`. -/
abbrev resultOf (c : Dev nD) : S10000x512.Idx → EReal :=
  result (startIdx (m ((c : Thread nD τ).loc main_arg0))) (m ((c : Thread nD τ).loc main_arg1))
    (m ((c : Thread nD τ).loc main_arg2)) (m ((c : Thread nD τ).loc main_arg3))

/-- The pool region's output array after its last write-back is `result` of the launch arrays. -/
theorem final_value (c : Dev nD) : (dat1 (V3 m ρ) c).arrAt 1 cfg1.N = resultOf m c := by
  refine (final_pool (V3 m ρ) c).trans ?_
  rw [entry1_gathered m ρ c, final_table (V1 m ρ) c, entry0_features m ρ c, entry0_weights m ρ c, entry0_bias m ρ c]
  exact kernel_is_result _ _ _ _

/-- THE KERNEL'S RUN: every weakly fair execution terminates, nothing faulting, with the result buffer at `result`
    of the launch arrays and the arguments unchanged. -/
theorem kernel_run : θ_run defs (onTc (τ := τ) (main (F := Ideal))) ⟨m, fun _ => 0, ρ⟩ (fun r => ∀ c : Dev nD,
      r.2.mem ((c.tc : Thread nD τ).loc main_v10) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (final_value m ρ c), (h c).2⟩) (run_named m ρ)

end Cert.KernelIdeal.PoolMlp

end
-- ==== Proof.RefIsResult.lean ====
/-
  The reference program's last stage is `result`. Read one operation at a time: the quotient by `32.0` of the
  zero-initialised sum over the 32 neighbours of the maximum with zero of the contraction over `k` of the gathered
  features with the weights, plus the bias. The gather reads column `k` of the feature table's row `row(r, s)`, and
  that row does not depend on the column: it is the row the result's entry names.
-/
import proofs.«156018_j33698313404802_2_alg».proof.Proof.Gen.ReferenceIdeal.Read
import proofs.«156018_j33698313404802_2_alg».proof.Proof.Result

noncomputable section

namespace Cert.ReferenceIdeal.PoolMlp

open Cert.ReferenceIdeal Cert.ReferenceIdeal.Read Cert.PoolMlp
open Idealize.ShloMosaic Idealize.ShloMosaic.ValueIdx Idealize.ShloMosaic.GatherRows
open scoped BigOperators

/-- The program's gather is the row gather of these shapes. -/
theorem gather_is_rows :
    gather_S100000x512_S10000x32x1_S10000x32x512_2_0_n_n_0_2_1512
      = rowDims 100000 512 10000 32 gather_S100000x512_S10000x32x1_S10000x32x512_2_0_n_n_0_2_1512.wf := rfl

/-- The gathered features at `(r, s, k)`, read through the contraction's left index: column `k` of the row that
    `(r, s)` names. -/
theorem gathered_at (x0 : IVec S10000x32 32) (x1 : S100000x512.Idx → EReal) (r : Fin 10000) (q : Fin 512) (s : Fin 32)
    (k : Fin 512) :
    val_main_v6 (F := Ideal) x0 x1 (lidx_main_v7 (idx_main_v12 (ix2 r q) s) k)
      = x1 (ix2 (rowOf table_rows_pos (val_main_v5 (F := Ideal) x0) (ix3 r s q : (⟨3, ![10000, 32, 512]⟩ : Shape).Idx)) k) := by
  unfold val_main_v6
  rw [gather_is_rows]
  refine (gather_rows_apply table_rows_pos _ x1 (val_main_v5 (F := Ideal) x0) _).trans ?_
  have hrow : rowOf table_rows_pos (val_main_v5 (F := Ideal) x0) (lidx_main_v7 (idx_main_v12 (ix2 r q) s) k)
      = rowOf table_rows_pos (val_main_v5 (F := Ideal) x0) (ix3 r s q : (⟨3, ![10000, 32, 512]⟩ : Shape).Idx) :=
    rowOf_congr _ _ _ _ rfl rfl
  refine congrArg x1 (funext fun a => Fin.ext ?_)
  match a with
  | ⟨0, _⟩ => exact congrArg Fin.val hrow
  | ⟨1, _⟩ => rfl

/-- THE REFERENCE'S LAST STAGE is `result` at its own prepared start indices. -/
theorem reference_is_result (x0 : IVec S10000x32 32) (x1 : S100000x512.Idx → EReal) (x2 : S512x512.Idx → EReal)
    (x3 : S512.Idx → EReal) :
    val_main_v14 (F := Ideal) x0 x1 x2 x3 = result (val_main_v5 (F := Ideal) x0) x1 x2 x3 := by
  funext i
  obtain ⟨r, q, rfl⟩ : ∃ (r : Fin 10000) (q : Fin 512), i = ix2 r q := ⟨i 0, i 1, eq_ix2 i⟩
  rw [val_main_v14_apply, val_main_v12_apply, val_main_v13_apply, val_main_cst_1_apply, val_main_cst_apply]
  simp only [Ideal.hostDivf_def, Ideal.ofBits_def]
  rw [Ideal.ofBits_zero_f32, zero_add]
  unfold result entry
  refine congrArg (fun z => Ideal.div z (Ideal.ofBits .f32 0x42000000#32)) (Finset.sum_congr rfl fun s _ => ?_)
  rw [val_main_v11_apply, val_main_v10_apply, val_main_v7_apply, val_main_v9_apply, val_main_v8_apply,
    val_main_call0_v0_apply, val_main_call0_cst_apply]
  simp only [Ideal.maximumf_def, Ideal.addf_def, Ideal.ofBits_def]
  refine congrArg₂ max (congrArg₂ (· + ·) (Finset.sum_congr rfl fun k _ => congrArg₂ (· * ·) ?_ ?_) ?_) rfl
  · exact gathered_at x0 x1 r q s k
  · refine congrArg x2 (funext fun a => Fin.ext ?_)
    match a with
    | ⟨0, _⟩ => rfl
    | ⟨1, _⟩ => rfl
  · refine congrArg x3 (funext fun a => Fin.ext ?_)
    match a with
    | ⟨0, _⟩ => rfl

end Cert.ReferenceIdeal.PoolMlp

end
-- ==== Proof.lean ====
/-
  The certificate of a neighbour-pooling layer: for each of 10000 nodes, the mean over its 32 sampled neighbours of
  `relu (features[neighbour] · Wᵀ + b)`.

  The kernel program applies `relu (x · Wᵀ + b)` to the whole feature table once (a pipelined region of 50 row blocks),
  takes the sampled neighbours' rows of the transformed table, and averages them (a second region of 25 row blocks).
  The reference takes the neighbours' rows of the feature table first, applies the same map to each and averages. On
  the extended reals both results are, entry by entry,

    ( Σ_s  max ( Σ_k features[row(r, s), k] · W[q, k] + b[q], 0 ) ) / 32,

  the same sums of the same products in the same order: the map acts on each row by itself, and taking rows (an
  out-of-range integer is clamped to a row of the table, on both sides alike) commutes with it. No law that needs
  finite entries is used, so the precondition is never opened.

  The three frames: the two kernel programs' are the several-region launch over the two regions' body triples; the
  reference's is its run with the result dropped. The idealization rewrote no operation, so what it preserves is
  trivially true. The value claim puts the kernel program's run (its result buffer read through both regions and the
  host operations between them) beside the reference's run read one operation at a time.
-/
import proofs.«156018_j33698313404802_2_alg».proof.Defs
import proofs.«156018_j33698313404802_2_alg».proof.Proof.Gen.Kernel
import proofs.«156018_j33698313404802_2_alg».proof.Proof.Gen.Kernel.Skeleton
import proofs.«156018_j33698313404802_2_alg».proof.Proof.Gen.Kernel.Launch
import proofs.«156018_j33698313404802_2_alg».proof.Proof.Gen.Kernel.Points
import proofs.«156018_j33698313404802_2_alg».proof.Proof.Gen.Kernel.Frame
import proofs.«156018_j33698313404802_2_alg».proof.Proof.Gen.KernelIdeal
import proofs.«156018_j33698313404802_2_alg».proof.Proof.Gen.KernelIdeal.Skeleton
import proofs.«156018_j33698313404802_2_alg».proof.Proof.Gen.KernelIdeal.Launch
import proofs.«156018_j33698313404802_2_alg».proof.Proof.Gen.KernelIdeal.Points
import proofs.«156018_j33698313404802_2_alg».proof.Proof.Gen.KernelIdeal.Frame
import proofs.«156018_j33698313404802_2_alg».proof.Proof.Gen.ReferenceIdeal
import proofs.«156018_j33698313404802_2_alg».proof.Proof.Gen.Pre_finite_inputs
import proofs.«156018_j33698313404802_2_alg».proof.Proof.Gen.ReferenceIdeal.Run
import proofs.«156018_j33698313404802_2_alg».proof.Proof.Gen.ReferenceIdeal.Read
import proofs.«156018_j33698313404802_2_alg».proof.Proof.KernelValue
import proofs.«156018_j33698313404802_2_alg».proof.Proof.RefIsResult
import Idealize.ShloMosaic.Adequacy
import Idealize.ShloMosaic.Init

noncomputable section

namespace Cert.Proof

open Idealize.ShloMosaic Idealize.SL.Sem Cert.Kernel

/-- The word-level kernel program runs and leaves its arguments unchanged. -/
theorem frame_kernel : Cert.frame_Kernel := fun m ρ _ => Cert.Kernel.Gen.frame m ρ

/-- So does the kernel program read on the extended reals. -/
theorem frame_kernel_ideal : Cert.frame_KernelIdeal := fun m ρ _ => Cert.KernelIdeal.Gen.frame m ρ

/-- The reference's frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The two programs prepare their start indices by the same operations: one term. -/
theorem start_indices_eq (x : IVec Cert.KernelIdeal.S10000x32 32) :
    Cert.ReferenceIdeal.Read.val_main_v5 (F := Ideal) x = Cert.KernelIdeal.PoolMlp.startIdx x := rfl

/-- From memories that agree on the arguments both programs run, and their results are the one function `result` of
    the arguments: the kernel's by its run read through the two regions, the reference's by its run read one
    operation at a time. -/
theorem algebraic : Cert.algebraic_KernelIdeal_ReferenceIdeal := by
  intro m ρ m' ρ' _ hagree
  refine ⟨fun c => Cert.KernelIdeal.PoolMlp.resultOf m c, Cert.KernelIdeal.PoolMlp.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.PoolMlp.reference_is_result,
    (hagree c).1, (hagree c).2.1, (hagree c).2.2.1, (hagree c).2.2.2, start_indices_eq]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
